-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S64x2 : Shape := ⟨2, ![64, 2]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel
  bcast_S_S64x2 : S_.BroadcastsInDim S64x2 (![] : Fin 0 → Fin S64x2.rank)
  reducesTo_S64x2_S_d0_1 : S64x2.ReducesTo [0, 1] S_

variable [Facts]

def fn {F : FTy → Type} [FloatOps F] (main_arg0 : FVec F S64x1x512x512 .f32) (main_arg1 : FVec F S64x1x512x512 .f32) (main_arg2 : FVec F S64x2 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  main_v13
-- ==== Kernel.lean ====
abbrev S64x1x512x512 : Shape := ⟨4, ![64, 1, 512, 512]⟩
abbrev S64x2 : Shape := ⟨2, ![64, 2]⟩
abbrev S64x512x512 : Shape := ⟨3, ![64, 512, 512]⟩
abbrev S64x1 : Shape := ⟨2, ![64, 1]⟩
abbrev S64 : Shape := ⟨1, ![64]⟩
abbrev S_ : Shape := ⟨0, ![]⟩
abbrev S8x1 : Shape := ⟨2, ![8, 1]⟩
abbrev S8x128x512 : Shape := ⟨3, ![8, 128, 512]⟩
abbrev S8x128 : Shape := ⟨2, ![8, 128]⟩
abbrev S8x512 : Shape := ⟨2, ![8, 512]⟩
abbrev S8x128x1 : Shape := ⟨3, ![8, 128, 1]⟩
abbrev S8x1x512 : Shape := ⟨3, ![8, 1, 512]⟩
abbrev S8x1x1 : Shape := ⟨3, ![8, 1, 1]⟩

abbrev nBuf : Space → Nat
  | .hbm => 27
  | .vmem => 11
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x2, .f32⟩
  | .hbm, ⟨3, _⟩ => ⟨S64x512x512, .f32⟩
  | .hbm, ⟨4, _⟩ => ⟨S64x512x512, .f32⟩
  | .hbm, ⟨5, _⟩ => ⟨S64x1, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .i32⟩
  | .hbm, ⟨12, _⟩ => ⟨S64x1, .i32⟩
  | .hbm, ⟨13, _⟩ => ⟨S64x1, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .i32⟩
  | .hbm, ⟨20, _⟩ => ⟨S64x1, .i32⟩
  | .hbm, ⟨21, _⟩ => ⟨S64x1, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S8x1, .i32⟩
  | .local _ .vmem, ⟨1, _⟩ => ⟨S8x1, .i32⟩
  | .local _ .vmem, ⟨2, _⟩ => ⟨S8x1, .i32⟩
  | .local _ .vmem, ⟨3, _⟩ => ⟨S8x1, .i32⟩
  | .local _ .vmem, ⟨4, _⟩ => ⟨S8x128x512, .f32⟩
  | .local _ .vmem, ⟨5, _⟩ => ⟨S8x128x512, .f32⟩
  | .local _ .vmem, ⟨6, _⟩ => ⟨S8x128x512, .f32⟩
  | .local _ .vmem, ⟨7, _⟩ => ⟨S8x128x512, .f32⟩
  | .local _ .vmem, ⟨8, _⟩ => ⟨S8x1, .f32⟩
  | .local _ .vmem, ⟨9, _⟩ => ⟨S8x1, .f32⟩
  | .local _ .vmem, ⟨10, _⟩ => ⟨S8x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v60 : BitVec 1 := Scalar.cmpi .eq arg1 c3_i32
  let v61 : BitVec 32 := Scalar.extui v60
  let c0_i32_20 : BitVec 32 := 0#32
  let v62 : BitVec 1 := Scalar.cmpi .ne v61 c0_i32_20
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x1x512x512_S64x512x512 : S64x1x512x512.ShapeCasts S64x512x512
  slices_S64x2_S64x1_0_0 : S64x2.Slices ![0, 0] S64x1
  shapeCasts_S64x1_S64 : S64x1.ShapeCasts S64
  bcast_S_S64 : S_.BroadcastsInDim S64 (![] : Fin 0 → Fin S64.rank)
  shapeCasts_S64_S64x1 : S64.ShapeCasts S64x1
  slices_S64x2_S64x1_0_1 : S64x2.Slices ![0, 1] S64x1
  iota_S8x128_d1_w32 : S8x128.Iotas .tc 32 [1]
  iota_S8x512_d1_w32 : S8x512.Iotas .tc 32 [1]
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x128 : S8x1.Broadcasts S8x128
  broadcasts_S8x1_S8x512 : S8x1.Broadcasts S8x512
  natLt_1_32 : 1 < 32
  shapeCasts_S8x128_S8x128x1 : S8x128.ShapeCasts S8x128x1
  shapeCasts_S8x512_S8x1x512 : S8x512.ShapeCasts S8x1x512
  broadcasts_S8x128x1_S8x128x512 : S8x128x1.Broadcasts S8x128x512
  broadcasts_S8x1x512_S8x128x512 : S8x1x512.Broadcasts S8x128x512
  inb_S8x128x512_S8x128x512_0_0_0 : ∀ a, (![0, 0, 0] : Fin 3 → Nat) a + S8x128x512.size a ≤ S8x128x512.size a
  h_S8x128x512 : 0 < S8x128x512.numel
  shapeCasts_S8x128x512_S8x128x512 : S8x128x512.ShapeCasts S8x128x512
  reduces_S8x128x512_S8x128 : S8x128x512.Reduces [2] S8x128
  reduces_S8x128x1_S8x1 : S8x128x1.Reduces [1] S8x1
  shapeCasts_S8x1_S8x1x1 : S8x1.ShapeCasts S8x1x1
  shapeCasts_S8x1x1_S8x1 : S8x1x1.ShapeCasts S8x1
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1.size a ≤ S64x1.size a
  hwx0_0 : ∀ i : grid0.Coords, EltTy.bits .i32 = 32 ∨ (Rect.block (s := S64x1) S8x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1.size a ≤ S64x1.size a
  hwx0_1 : ∀ i : grid0.Coords, EltTy.bits .i32 = 32 ∨ (Rect.block (s := S64x1) S8x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x512.size a ≤ S64x512x512.size a
  hwx0_2 : ∀ i : grid0.Coords, EltTy.bits .f32 = 32 ∨ (Rect.block (s := S64x512x512) S8x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x512.size a ≤ S64x512x512.size a
  hwx0_3 : ∀ i : grid0.Coords, EltTy.bits .f32 = 32 ∨ (Rect.block (s := S64x512x512) S8x128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S64x1.size a
  hwx0_4 : ∀ i : grid0.Coords, EltTy.bits .f32 = 32 ∨ (Rect.block (s := S64x1) S8x1.size (cc0_transform_4 i) (hinb0_4 i)).WholeWords (EltTy.packing .f32)

variable [Facts₀]

abbrev win0_0 : Pipeline.Window sig grid0 :=
  Pipeline.Window.ofSpec (Memref.whole main_v8) S8x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S8x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x1x512x512 : Shape := ⟨4, ![64, 1, 512, 512]⟩
abbrev S64x2 : Shape := ⟨2, ![64, 2]⟩
abbrev S64x1 : Shape := ⟨2, ![64, 1]⟩
abbrev S64 : Shape := ⟨1, ![64]⟩
abbrev S_ : Shape := ⟨0, ![]⟩
abbrev S512 : Shape := ⟨1, ![512]⟩
abbrev S1x512 : Shape := ⟨2, ![1, 512]⟩
abbrev S64x512 : Shape := ⟨2, ![64, 512]⟩
abbrev S64x1x512x1 : Shape := ⟨4, ![64, 1, 512, 1]⟩
abbrev S64x1x1x512 : Shape := ⟨4, ![64, 1, 1, 512]⟩

abbrev nBuf : Space → Nat
  | .hbm => 76
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S64x2, .f32⟩
  | .hbm, ⟨3, _⟩ => ⟨S64x1, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .i32⟩
  | .hbm, ⟨10, _⟩ => ⟨S64x1, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .i32⟩
  | .hbm, ⟨17, _⟩ => ⟨S512, .i32⟩
  | .hbm, ⟨18, _⟩ => ⟨S512, .i32⟩
  | .hbm, ⟨19, _⟩ => ⟨S1x512, .i32⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64x1, .i32⟩
  | .hbm, ⟨24, _⟩ => ⟨S64x512, .i32⟩
  | .hbm, ⟨25, _⟩ => ⟨S64x512, .i32⟩
  | .hbm, ⟨26, _⟩ => ⟨S64x512, .i1⟩
  | .hbm, ⟨27, _⟩ => ⟨S1x512, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S64x1, .i32⟩
  | .hbm, ⟨32, _⟩ => ⟨S64x512, .i32⟩
  | .hbm, ⟨33, _⟩ => ⟨S64x512, .i32⟩
  | .hbm, ⟨34, _⟩ => ⟨S64x512, .i1⟩
  | .hbm, ⟨35, _⟩ => ⟨S64x512, .i1⟩
  | .hbm, ⟨36, _⟩ => ⟨S1x512, .i32⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S64x1, .i32⟩
  | .hbm, ⟨41, _⟩ => ⟨S64x512, .i32⟩
  | .hbm, ⟨42, _⟩ => ⟨S64x512, .i32⟩
  | .hbm, ⟨43, _⟩ => ⟨S64x512, .i1⟩
  | .hbm, ⟨44, _⟩ => ⟨S1x512, .i32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64x1, .i32⟩
  | .hbm, ⟨49, _⟩ => ⟨S64x512, .i32⟩
  | .hbm, ⟨50, _⟩ => ⟨S64x512, .i32⟩
  | .hbm, ⟨51, _⟩ => ⟨S64x512, .i1⟩
  | .hbm, ⟨52, _⟩ => ⟨S64x512, .i1⟩
  | .hbm, ⟨53, _⟩ => ⟨S64x1x512x1, .i1⟩
  | .hbm, ⟨54, _⟩ => ⟨S64x1x1x512, .i1⟩
  | .hbm, ⟨55, _⟩ => ⟨S64x1x512x512, .i1⟩
  | .hbm, ⟨56, _⟩ => ⟨S64x1x512x512, .i1⟩
  | .hbm, ⟨57, _⟩ => ⟨S64x1x512x512, .i1⟩
  | .hbm, ⟨58, _⟩ => ⟨S_, .f32⟩
  | .hbm, ⟨59, _⟩ => ⟨S_, .f32⟩
  | .hbm, ⟨60, _⟩ => ⟨S64x1x512x512, .f32⟩
  | .hbm, ⟨61, _⟩ => ⟨S64x1x512x512, .f32⟩
  | .hbm, ⟨62, _⟩ => ⟨S64x1x512x512, .f32⟩
  | .hbm, ⟨63, _⟩ => ⟨S64x1x512x512, .f32⟩
  | .hbm, ⟨64, _⟩ => ⟨S64x1x512x512, .f32⟩
  | .hbm, ⟨65, _⟩ => ⟨S64x1x512x512, .f32⟩
  | .hbm, ⟨66, _⟩ => ⟨S_, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩

abbrev nD : Nat := 1
abbrev τ : Topo := Topo.v7x

variable {F : FTy → Type} [FloatOps F]

class Facts₀ : Prop where
  slices_S64x2_S64x1_0_0 : S64x2.Slices ![0, 0] S64x1
  shapeCasts_S64x1_S64 : S64x1.ShapeCasts S64
  bcast_S_S64 : S_.BroadcastsInDim S64 (![] : Fin 0 → Fin S64.rank)
  slices_S64x2_S64x1_0_1 : S64x2.Slices ![0, 1] S64x1
  bcast_S512_S1x512_1 : S512.BroadcastsInDim S1x512 (![1] : Fin 1 → Fin S1x512.rank)
  bcast_S64_S64x1_0 : S64.BroadcastsInDim S64x1 (![0] : Fin 1 → Fin S64x1.rank)
  bcast_S1x512_S64x512_0_1 : S1x512.BroadcastsInDim S64x512 (![0, 1] : Fin 2 → Fin S64x512.rank)
  bcast_S64x1_S64x512_0_1 : S64x1.BroadcastsInDim S64x512 (![0, 1] : Fin 2 → Fin S64x512.rank)
  bcast_S64x512_S64x1x512x1_0_2 : S64x512.BroadcastsInDim S64x1x512x1 (![0, 2] : Fin 2 → Fin S64x1x512x1.rank)
  bcast_S64x512_S64x1x1x512_0_3 : S64x512.BroadcastsInDim S64x1x1x512 (![0, 3] : Fin 2 → Fin S64x1x1x512.rank)
  bcast_S64x1x512x1_S64x1x512x512_0_1_2_3 : S64x1x512x1.BroadcastsInDim S64x1x512x512 (![0, 1, 2, 3] : Fin 4 → Fin S64x1x512x512.rank)
  bcast_S64x1x1x512_S64x1x512x512_0_1_2_3 : S64x1x1x512.BroadcastsInDim S64x1x512x512 (![0, 1, 2, 3] : Fin 4 → Fin S64x1x512x512.rank)
  bcast_S_S64x1x512x512 : S_.BroadcastsInDim S64x1x512x512 (![] : Fin 0 → Fin S64x1x512x512.rank)
  reducesTo_S64x1x512x512_S64_d1_2_3 : S64x1x512x512.ReducesTo [1, 2, 3] S64
  h_S_ : 0 < S_.numel
  reducesTo_S64_S_d0 : S64.ReducesTo [0] S_

variable [Facts₀]

class Facts : Prop extends Facts₀ where

variable [Facts]
-- ==== Proof.KernelPieces.lean ====
/-
  What one grid step leaves behind, as values. A step loads the eight samples' centre words, the two image blocks and
  the running total, and stores the updated total; the first step of a sample group first stores zero and reads it
  back, the last one also stores the square-rooted mean of the total it has just written. Each stored value is the
  step's arithmetic applied to exactly what was loaded.
-/
import proofs.«113860_j25546465476984_2_alg».proof.Proof.Gen.KernelIdeal.Frame
import Idealize.ShloMosaic.Lib.Pipeline.Value
import Idealize.ShloMosaic.Lib.Tactic

set_option maxRecDepth 16384

noncomputable section

namespace Cert.KernelIdeal.RoiPieces

open Cert.KernelIdeal Cert.KernelIdeal.Gen Idealize.ShloMosaic Idealize.ShloMosaic.TcCoe Idealize.SL.Sem Idealize.ShloMosaic.Tactic

variable {F : FTy → Type} [FloatOps F]

/-- The all-zero offsets of a whole rank-2 (rank-3) access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle step: the new total is the update of the old one. -/
theorem sout_B (c : Dev nD) (i : grid0.Coords) (arg2 : Memref sig .tc .vmem S8x1 .i32) (harg2 : arg2.IsWhole) (arg3 : Memref sig .tc .vmem S8x1 .i32) (harg3 : arg3.IsWhole) (arg4 : Memref sig .tc .vmem S8x128x512 .f32) (harg4 : arg4.IsWhole) (arg5 : Memref sig .tc .vmem S8x128x512 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i)
    (x0 : Vec F S8x1 .i32) (x1 : Vec F S8x1 .i32) (x2 : Vec F S8x128x512 .f32) (x3 : Vec F S8x128x512 .f32) (xs0 : Vec F S8x1 .f32) :
    sout0_B_0 c i arg2 harg2 arg3 harg3 arg4 harg4 arg5 harg5 arg6 harg6 arg7 harg7 hc0 hc1 x0 x1 x2 x3 xs0
      = k0_pay2 (k0_pay4 i x1 x0) (k0_pay5 x2) x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S8x1) hz2, View.ld_unit_zero (S := S8x128x512) hz3]

/-- A first step: the update of the zero it has just stored. -/
theorem sout_A (c : Dev nD) (i : grid0.Coords) (arg2 : Memref sig .tc .vmem S8x1 .i32) (harg2 : arg2.IsWhole) (arg3 : Memref sig .tc .vmem S8x1 .i32) (harg3 : arg3.IsWhole) (arg4 : Memref sig .tc .vmem S8x128x512 .f32) (harg4 : arg4.IsWhole) (arg5 : Memref sig .tc .vmem S8x128x512 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i)
    (x0 : Vec F S8x1 .i32) (x1 : Vec F S8x1 .i32) (x2 : Vec F S8x128x512 .f32) (x3 : Vec F S8x128x512 .f32) :
    sout0_A_0 c i arg2 harg2 arg3 harg3 arg4 harg4 arg5 harg5 arg6 harg6 arg7 harg7 hc0 hc1 x0 x1 x2 x3
      = k0_pay2 (k0_pay4 i x1 x0) (k0_pay5 x2) x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg4.read_unread, harg5.read_unread, harg7.read_unread,
    View.ld_unit_zero (S := S8x1) hz2, View.ld_unit_zero (S := S8x128x512) hz3]

/-- A last step's output block: the finishing arithmetic of the total it has just stored. -/
theorem out_C (c : Dev nD) (i : grid0.Coords) (arg2 : Memref sig .tc .vmem S8x1 .i32) (harg2 : arg2.IsWhole) (arg3 : Memref sig .tc .vmem S8x1 .i32) (harg3 : arg3.IsWhole) (arg4 : Memref sig .tc .vmem S8x128x512 .f32) (harg4 : arg4.IsWhole) (arg5 : Memref sig .tc .vmem S8x128x512 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i)
    (x0 : Vec F S8x1 .i32) (x1 : Vec F S8x1 .i32) (x2 : Vec F S8x128x512 .f32) (x3 : Vec F S8x128x512 .f32) (xs0 : Vec F S8x1 .f32) :
    out0_C_4 c i arg2 harg2 arg3 harg3 arg4 harg4 arg5 harg5 arg6 harg6 arg7 harg7 hc0 hc1 x0 x1 x2 x3 xs0
      = k0_pay3 (k0_pay2 (k0_pay4 i x1 x0) (k0_pay5 x2) x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz2, View.readCov_unit_zero (S := S8x1) _ hz2]
  simp only [View.readAt_eq_ld, harg2.read_unread, harg3.read_unread, harg4.read_unread, harg5.read_unread, harg7.read_unread,
    View.ld_unit_zero (S := S8x1) hz2, View.ld_unit_zero (S := S8x128x512) hz3]

/-- A last step's total: the update of the old one. -/
theorem sout_C (c : Dev nD) (i : grid0.Coords) (arg2 : Memref sig .tc .vmem S8x1 .i32) (harg2 : arg2.IsWhole) (arg3 : Memref sig .tc .vmem S8x1 .i32) (harg3 : arg3.IsWhole) (arg4 : Memref sig .tc .vmem S8x128x512 .f32) (harg4 : arg4.IsWhole) (arg5 : Memref sig .tc .vmem S8x128x512 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i)
    (x0 : Vec F S8x1 .i32) (x1 : Vec F S8x1 .i32) (x2 : Vec F S8x128x512 .f32) (x3 : Vec F S8x128x512 .f32) (xs0 : Vec F S8x1 .f32) :
    sout0_C_0 c i arg2 harg2 arg3 harg3 arg4 harg4 arg5 harg5 arg6 harg6 arg7 harg7 hc0 hc1 x0 x1 x2 x3 xs0
      = k0_pay2 (k0_pay4 i x1 x0) (k0_pay5 x2) x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S8x1) hz2, View.ld_unit_zero (S := S8x128x512) hz3]

end Cert.KernelIdeal.RoiPieces

end
-- ==== Proof.RoiSpec.lean ====
/-
  A weighted squared error summed over a 512 x 512 image, sample by sample, and its square-rooted mean.

  Each sample b has a square box of side 32 centred at a pixel (cy b, cx b): row h is in the box's band when
  cy b - 16 ≤ h < cy b + 16 (as signed 32-bit words), column c likewise around cx b. A pixel inside both bands
  weighs 10, any other pixel 1. Two spellings of that weight are joined here: a selection between the two literals
  on the conjunction of the band bits, and 1 + 9 · (y · x) over the band bits read as the numbers 0 and 1. They agree
  because 1 + 9 · 1 = 10 and 1 + 9 · 0 = 1 on the extended reals.

  The sum over the image is taken in two orders: all at once, and as a running total over four groups of 128 rows.
  Over the extended reals addition is commutative and associative, so the two orders give one number; no finiteness
  is used anywhere.
-/
import Idealize.ShloMosaic.PureOps.Ideal
import Idealize.ShloMosaic.PureOps.Ideal.Laws
import Idealize.ShloMosaic.Lib.ValueIdx

noncomputable section

namespace Cert.Roi

open Idealize.ShloMosaic

/-! ## The three literals -/

theorem ofBits_one : Ideal.ofBits .f32 0x3F800000#32 = ((1 : ℝ) : EReal) := by
  simp [Ideal.ofBits, Ideal.ieee, -EReal.coe_mul]; norm_num

theorem ofBits_nine : Ideal.ofBits .f32 0x41100000#32 = ((9 : ℝ) : EReal) := by
  simp [Ideal.ofBits, Ideal.ieee, -EReal.coe_mul]; norm_num

theorem ofBits_ten : Ideal.ofBits .f32 0x41200000#32 = ((10 : ℝ) : EReal) := by
  simp [Ideal.ofBits, Ideal.ieee, -EReal.coe_mul]; norm_num

/-! ## The band and the weight -/

/-- Position n is in the band of half-width 16 around ctr: ctr - 16 ≤ n and n < ctr + 16, both compared as
    signed 32-bit words, the two ends computed with wrap-around. -/
def band (ctr : BitVec 32) (n : ℕ) : BitVec 1 :=
  IntOp.andi (IntOp.cmpi .sge (BitVec.ofNat 32 n) (IntOp.subi ctr 16#32))
    (IntOp.cmpi .slt (BitVec.ofNat 32 n) (IntOp.addi ctr 16#32))

/-- The weight by selection: 10 where both band bits are set, 1 elsewhere. -/
def wSel (y x : BitVec 1) : EReal :=
  Scalar.select (IntOp.andi y x) (Ideal.ofBits .f32 0x41200000#32) (Ideal.ofBits .f32 0x3F800000#32)

/-- A band bit read as a number: 0 or 1. -/
def bitNum (y : BitVec 1) : EReal := (((y.setWidth 32).toInt : ℝ) : EReal)

/-- The weight by multiply-add: 1 + 9 · (y · x) over the band bits as numbers. -/
def wFma (y x : BitVec 1) : EReal :=
  Ideal.ofBits .f32 0x3F800000#32 + Ideal.ofBits .f32 0x41100000#32 * (bitNum y * bitNum x)

theorem bit_cases (y : BitVec 1) : y = 0#1 ∨ y = 1#1 := by
  by_cases h : y = 1#1
  · exact Or.inr h
  · exact Or.inl (ValueIdx.eq_zero_of_ne_one h)

theorem bitNum_zero : bitNum 0#1 = 0 := by
  show (((((0#1 : BitVec 1).setWidth 32).toInt : ℝ)) : EReal) = 0
  rw [show ((0#1 : BitVec 1).setWidth 32).toInt = 0 from by decide]
  simp

theorem bitNum_one : bitNum 1#1 = 1 := by
  show (((((1#1 : BitVec 1).setWidth 32).toInt : ℝ)) : EReal) = 1
  rw [show ((1#1 : BitVec 1).setWidth 32).toInt = 1 from by decide]
  simp

/-- The two spellings of the weight are one number. -/
theorem wFma_eq_wSel (y x : BitVec 1) : wFma y x = wSel y x := by
  have h10 : ((1 : ℝ) : EReal) + ((9 : ℝ) : EReal) * (1 * 1) = ((10 : ℝ) : EReal) := by
    rw [mul_one, mul_one, ← EReal.coe_add]; norm_num
  unfold wFma wSel
  rw [ofBits_one, ofBits_nine, ofBits_ten]
  rcases bit_cases y with rfl | rfl <;> rcases bit_cases x with rfl | rfl
  · rw [bitNum_zero, mul_zero, mul_zero, add_zero]; rfl
  · rw [bitNum_zero, zero_mul, mul_zero, add_zero]; rfl
  · rw [bitNum_zero, mul_zero, mul_zero, add_zero]; rfl
  · rw [bitNum_one, h10]; rfl

/-! ## One pixel, one row, the running total -/

/-- One pixel's term: the squared difference times the weight. -/
def cell (p t w : EReal) : EReal := (p - t) * (p - t) * w

variable (P T : Fin 64 → Fin 512 → Fin 512 → EReal) (cy cx : Fin 64 → BitVec 32)

/-- Row h of sample b: the sum of its 512 pixel terms. -/
def rowSum (b : Fin 64) (h : Fin 512) : EReal :=
  ∑ c : Fin 512, cell (P b h c) (T b h c) (wSel (band (cy b) h.val) (band (cx b) c.val))

/-- The same with the row given as a natural number (zero past the image). -/
def rowN (b : Fin 64) (n : ℕ) : EReal :=
  if hn : n < 512 then rowSum P T cy cx b ⟨n, hn⟩ else 0

theorem rowN_of_lt (b : Fin 64) (n : ℕ) (hn : n < 512) : rowN P T cy cx b n = rowSum P T cy cx b ⟨n, hn⟩ :=
  dif_pos hn

/-- The running total of sample b over its first k groups of 128 rows. -/
def acc (b : Fin 64) (k : ℕ) : EReal := ∑ n ∈ Finset.range (k * 128), rowN P T cy cx b n

theorem acc_zero (b : Fin 64) : acc P T cy cx b 0 = 0 := by
  unfold acc; rw [Nat.zero_mul, Finset.range_zero, Finset.sum_empty]

/-- One more group of 128 rows. -/
theorem acc_succ (b : Fin 64) (k : ℕ) :
    acc P T cy cx b (k + 1) = acc P T cy cx b k + ∑ r : Fin 128, rowN P T cy cx b (k * 128 + r.val) := by
  unfold acc
  rw [show (k + 1) * 128 = k * 128 + 128 from by ring, Finset.sum_range_add,
    Finset.sum_range (fun x => rowN P T cy cx b (k * 128 + x))]

/-- All four groups: the sum over the whole image. -/
theorem acc_four (b : Fin 64) : acc P T cy cx b 4 = ∑ h : Fin 512, rowSum P T cy cx b h := by
  unfold acc
  rw [show 4 * 128 = 512 from rfl, Finset.sum_range]
  exact Finset.sum_congr rfl fun h _ => rowN_of_lt P T cy cx b h.val h.isLt

/-- The per-sample result: the square root of the total divided by the pixel count 2^18. -/
def loss (b : Fin 64) : EReal :=
  Ideal.sqrt (Ideal.div (acc P T cy cx b 4) (Ideal.ofBits .f32 0x48800000#32))

end Cert.Roi

end
-- ==== Proof.LibLayout.lean ====
/-
  Three layout operations read at an index, at rank 3, with every index written by its coordinates. A value that
  depends on the first and last coordinates only is laid out along a middle axis of extent one and then repeated along
  it; a value that depends on the last two coordinates only is given a leading axis of extent one and then repeated
  along that. Reading the result at `(i, j, k)` reads the operand at `(i, k)`, respectively `(j, k)`: a cast keeps
  the row-major position, and a broadcast reads coordinate zero on an axis of extent one.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, c]` array cast to `[a, 1, c]` reads, at `(i, u, k)`, the operand at `(i, k)`: both have row-major
    position `i · c + k`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

end Idealize.ShloMosaic.ValueIdx
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.LibKeep.lean ====
/-
  Four layout steps around a kept unit axis, each read at an index written by coordinates: a matrix given a trailing
  axis of extent one and then repeated along it, and a column passed through rank 3 and back. A cast keeps the
  row-major position; a broadcast reads coordinate zero on an axis of extent one.
-/
import Idealize.ShloMosaic.Lib.Pipeline.Value
import Idealize.ShloMosaic.Lib.ValueIdx

namespace Idealize.ShloMosaic.ValueIdx

variable {α : Type}

/-- An [a, b] matrix cast to [a, b, 1] reads, at (i, j, u), the operand at (i, j): both have row-major
    position i · b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A column [a, 1] cast to [a, 1, 1] reads, at (i, u, v), the column's entry of row i. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_three, Shape.rowMajor_val_two]
    show i.val * 1 + 0 = (i.val * 1 + u.val) * 1 + v.val
    rw [hu, hv, Nat.mul_one, Nat.add_zero, Nat.mul_one, Nat.add_zero])

/-- An [a, 1, 1] array cast to the column [a, 1] reads, at (i, u), the operand at (i, 0, 0). -/
theorem shapeCast_a11_a1_apply {a : ℕ} (x : (⟨3, ![a, 1, 1]⟩ : Shape).Idx → α)
    (h : (⟨3, ![a, 1, 1]⟩ : Shape).ShapeCasts ⟨2, ![a, 1]⟩) (i : Fin a) (u : Fin 1) :
    shapeCast ⟨2, ![a, 1]⟩ x h (ix2 i u) = x (ix3 i (0 : Fin 1) (0 : Fin 1)) :=
  shapeCast_apply x h _ _ (by
    have hu : u.val = 0 := by omega
    rw [Shape.rowMajor_val_three, Shape.rowMajor_val_two]
    show (i.val * 1 + 0) * 1 + 0 = i.val * 1 + u.val
    rw [hu, Nat.add_zero, Nat.mul_one])

end Idealize.ShloMosaic.ValueIdx
-- ==== Proof.KernelBlock.lean ====
/-
  The arithmetic of one grid step, read entry by entry over the extended reals.

  A step holds eight samples (p), 128 image rows (r) and all 512 columns (c). Its weight at (p, r, c) is
  1 + 9 · (y · x) with y the row-band bit of image row 128 · step + r around the sample's centre row and x the
  column-band bit of column c around its centre column; the step adds to each sample's running total the sum over
  its 128 rows of the sum over the 512 columns of (squared difference) · weight.
-/
import proofs.«113860_j25546465476984_2_alg».proof.Proof.Gen.KernelIdeal.Skeleton
import proofs.«113860_j25546465476984_2_alg».proof.Proof.RoiSpec
import proofs.«113860_j25546465476984_2_alg».proof.Proof.LibLayout
import proofs.«113860_j25546465476984_2_alg».proof.Proof.LibColumn
import proofs.«113860_j25546465476984_2_alg».proof.Proof.LibKeep
import Idealize.ShloMosaic.Lib.Pipeline.Value
import Idealize.ShloMosaic.Lib.ValueIdx
import Idealize.ShloMosaic.PureOps.Ideal.Laws

noncomputable section

namespace Cert.KernelIdeal.RoiBlock

open Cert.KernelIdeal Idealize.ShloMosaic Idealize.ShloMosaic.ValueIdx Cert.Roi

/-! ## The band bits -/

/-- Both comparisons of a position vector against a per-sample centre column, at (p, q): the centre is read at
    (p, 0) whatever q. -/
theorem bandVec_apply {b : ℕ} (pos : IVec ⟨2, ![8, b]⟩ 32) (ctr : IVec ⟨2, ![8, 1]⟩ 32)
    (hb : (⟨2, ![8, 1]⟩ : Shape).Broadcasts ⟨2, ![8, b]⟩) (p : Fin 8) (q : Fin b) :
    andi (cmpi .sge pos (broadcastTo ⟨2, ![8, b]⟩ (subi ctr (broadcast ⟨2, ![8, 1]⟩ 16#32)) hb))
        (cmpi .slt pos (broadcastTo ⟨2, ![8, b]⟩ (addi ctr (broadcast ⟨2, ![8, 1]⟩ 16#32)) hb)) (ix2 p q)
      = IntOp.andi (IntOp.cmpi .sge (pos (ix2 p q)) (IntOp.subi (ctr (ix2 p (0 : Fin 1))) 16#32))
          (IntOp.cmpi .slt (pos (ix2 p q)) (IntOp.addi (ctr (ix2 p (0 : Fin 1))) 16#32)) := by
  show IntOp.andi (IntOp.cmpi .sge (pos (ix2 p q)) (broadcastTo ⟨2, ![8, b]⟩ (subi ctr (broadcast ⟨2, ![8, 1]⟩ 16#32)) hb (ix2 p q)))
      (IntOp.cmpi .slt (pos (ix2 p q)) (broadcastTo ⟨2, ![8, b]⟩ (addi ctr (broadcast ⟨2, ![8, 1]⟩ 16#32)) hb (ix2 p q))) = _
  rw [broadcastTo_a1_ab_apply, broadcastTo_a1_ab_apply]
  rfl

/-- The image row of entry (p, r) of step n: the lane number r plus 128 · n, as a 32-bit word. -/
theorem rows_apply (n : ℕ) (h : (⟨2, ![8, 128]⟩ : Shape).Iotas .tc 32 [1]) (p : Fin 8) (r : Fin 128) :
    addi (iota .tc ⟨2, ![8, 128]⟩ 32 [1] h) (broadcast ⟨2, ![8, 128]⟩ (Scalar.muli (BitVec.ofNat 32 n) 128#32)) (ix2 p r)
      = BitVec.ofNat 32 (n * 128 + r.val) := by
  show IntOp.addi (iota .tc ⟨2, ![8, 128]⟩ 32 [1] h (ix2 p r)) (Scalar.muli (BitVec.ofNat 32 n) 128#32) = _
  rw [iota_single_apply]
  show BitVec.ofNat 32 r.val + BitVec.ofNat 32 n * BitVec.ofNat 32 128 = _
  rw [Nat.add_comm, BitVec.ofNat_add, BitVec.ofNat_mul]

/-! ## The band bits as numbers, laid out over the block -/

theorem rowMask_apply (W : IVec ⟨2, ![8, 128]⟩ 1) (h32 : 1 < 32)
    (hc : (⟨2, ![8, 128]⟩ : Shape).ShapeCasts ⟨3, ![8, 128, 1]⟩)
    (hb : (⟨3, ![8, 128, 1]⟩ : Shape).Broadcasts ⟨3, ![8, 128, 512]⟩) (p : Fin 8) (r : Fin 128) (c : Fin 512) :
    broadcastTo ⟨3, ![8, 128, 512]⟩ (shapeCast ⟨3, ![8, 128, 1]⟩ (sitofp (F := Ideal) .f32 (extui 32 W h32)) hc) hb (ix3 p r c)
      = bitNum (W (ix2 p r)) := by
  rw [broadcastTo_ab1_abc_apply, shapeCast_ab_ab1_apply]
  rfl

theorem colMask_apply (W : IVec ⟨2, ![8, 512]⟩ 1) (h32 : 1 < 32)
    (hc : (⟨2, ![8, 512]⟩ : Shape).ShapeCasts ⟨3, ![8, 1, 512]⟩)
    (hb : (⟨3, ![8, 1, 512]⟩ : Shape).Broadcasts ⟨3, ![8, 128, 512]⟩) (p : Fin 8) (r : Fin 128) (c : Fin 512) :
    broadcastTo ⟨3, ![8, 128, 512]⟩ (shapeCast ⟨3, ![8, 1, 512]⟩ (sitofp (F := Ideal) .f32 (extui 32 W h32)) hc) hb (ix3 p r c)
      = bitNum (W (ix2 p c)) := by
  rw [broadcastTo_a1c_abc_apply, shapeCast_ac_a1c_apply]
  rfl

/-! ## The weight -/

/-- The step's weight at (p, r, c). -/
theorem weight_apply (i : grid0.Coords) (v5 v7 : Vec Ideal S8x1 .i32) (p : Fin 8) (r : Fin 128) (c : Fin 512) :
    Gen.k0_pay4 (F := Ideal) i v5 v7 (ix3 p r c)
      = wFma (band (v5 (ix2 p (0 : Fin 1))) ((i 1).val * 128 + r.val)) (band (v7 (ix2 p (0 : Fin 1))) c.val) := by
  unfold Gen.k0_pay4
  dsimp only
  show Ideal.ofBits .f32 0x3F800000#32 + Ideal.ofBits .f32 0x41100000#32
      * (broadcastTo S8x128x512 (shapeCast S8x128x1 (sitofp .f32 (extui 32 _ _)) _) _ (ix3 p r c)
        * broadcastTo S8x128x512 (shapeCast S8x1x512 (sitofp .f32 (extui 32 _ _)) _) _ (ix3 p r c)) = _
  rw [rowMask_apply, colMask_apply, bandVec_apply, bandVec_apply, rows_apply, iota_single_apply, shapeCast_self,
    shapeCast_self]
  rfl

/-! ## The two sums -/

/-- The sum over the columns: the reduction over the last axis of an [8, 128, 512] array, at (p, r). -/
theorem laneSum_apply (src : FVec Ideal ⟨3, ![8, 128, 512]⟩ .f32)
    (h : (⟨3, ![8, 128, 512]⟩ : Shape).Reduces [2] ⟨2, ![8, 128]⟩) (hφ : FKind.Formats .f32)
    (hacc : (0x00000000#32 : BitVec 32) = 0x00000000#32) (p : Fin 8) (r : Fin 128) :
    multiReduction .add [2] ⟨2, ![8, 128]⟩ src 0x00000000#32 h hφ hacc (ix2 p r) = ∑ c : Fin 512, src (ix3 p r c) := by
  refine (Ideal.multiReduction_add_single src 0x00000000#32 h hφ hacc (ix2 p r)).trans ?_
  exact Finset.sum_congr rfl fun c _ => congrArg src (funext fun a => Fin.ext (by
    match a with
    | ⟨0, _⟩ => rfl
    | ⟨1, _⟩ => rfl
    | ⟨2, _⟩ => rfl))

/-- The sum over the rows: the reduction over the middle axis of an [8, 128, 1] array, at (p, u). -/
theorem rowsSum_apply (src : FVec Ideal ⟨3, ![8, 128, 1]⟩ .f32)
    (h : (⟨3, ![8, 128, 1]⟩ : Shape).Reduces [1] ⟨2, ![8, 1]⟩) (hφ : FKind.Formats .f32)
    (hacc : (0x00000000#32 : BitVec 32) = 0x00000000#32) (p : Fin 8) (u : Fin 1) :
    multiReduction .add [1] ⟨2, ![8, 1]⟩ src 0x00000000#32 h hφ hacc (ix2 p u) = ∑ r : Fin 128, src (ix3 p r u) := by
  refine (Ideal.multiReduction_add_single src 0x00000000#32 h hφ hacc (ix2 p u)).trans ?_
  exact Finset.sum_congr rfl fun r _ => congrArg src (funext fun a => Fin.ext (by
    match a with
    | ⟨0, _⟩ => rfl
    | ⟨1, _⟩ => rfl
    | ⟨2, _⟩ => rfl))

/-- One step's update of a sample's running total: the old total plus the sum over the step's 128 rows and 512
    columns of the pixel terms. -/
theorem step_apply (v39 v41 : FVec Ideal S8x128x512 .f32) (v42 : Vec Ideal S8x128x512 .f32) (v55 : Vec Ideal S8x1 .f32)
    (p : Fin 8) (u : Fin 1) :
    Gen.k0_pay2 (F := Ideal) v39 v41 v42 v55 (ix2 p u)
      = v55 (ix2 p u) + ∑ r : Fin 128, ∑ c : Fin 512, cell (v41 (ix3 p r c)) (v42 (ix3 p r c)) (v39 (ix3 p r c)) := by
  unfold Gen.k0_pay2
  dsimp only
  rw [shapeCast_self, shapeCast_self, addf_apply, shapeCast_a11_a1_apply, shapeCast_a1_a11_apply, rowsSum_apply]
  refine congrArg (v55 (ix2 p u) + ·) (Finset.sum_congr rfl fun r _ => ?_)
  rw [shapeCast_ab_ab1_apply, laneSum_apply]
  rfl

/-- The last step's result: the square root of the total divided by the pixel count. -/
theorem finish_apply (v63 : Vec Ideal S8x1 .f32) (p : Fin 8) (u : Fin 1) :
    Gen.k0_pay3 (F := Ideal) v63 (ix2 p u) = Ideal.sqrt (Ideal.div (v63 (ix2 p u)) (Ideal.ofBits .f32 0x48800000#32)) := rfl

/-- The first step starts from zero. -/
theorem start_apply (p : Fin 8) (u : Fin 1) : Gen.k0_pay1 (F := Ideal) (ix2 p u) = 0 := by
  unfold Gen.k0_pay1
  rw [shapeCast_self]
  exact Ideal.ofBits_zero_f32

/-- One step's update in the image's own coordinates: when the step is number k of its sample group, entry p of its
    blocks is sample b, and the blocks hold rows 128 · k … 128 · k + 127 of that sample's two images and its centre
    words, the new total of sample b is the old one plus the next 128 row sums. -/
theorem update_apply (i : grid0.Coords) (x0 x1 : Vec Ideal S8x1 .i32) (x2 x3 : Vec Ideal S8x128x512 .f32)
    (xs : Vec Ideal S8x1 .f32) (P T : Fin 64 → Fin 512 → Fin 512 → EReal) (cy cx : Fin 64 → BitVec 32) (b : Fin 64)
    (k : ℕ) (hk : k < 4) (p : Fin 8) (u : Fin 1) (hi : (i 1).val = k)
    (h0 : x0 (ix2 p (0 : Fin 1)) = cx b) (h1 : x1 (ix2 p (0 : Fin 1)) = cy b)
    (h2 : ∀ (r : Fin 128) (q : Fin 512) (hh : k * 128 + r.val < 512), x2 (ix3 p r q) = P b ⟨k * 128 + r.val, hh⟩ q)
    (h3 : ∀ (r : Fin 128) (q : Fin 512) (hh : k * 128 + r.val < 512), x3 (ix3 p r q) = T b ⟨k * 128 + r.val, hh⟩ q) :
    Gen.k0_pay2 (F := Ideal) (Gen.k0_pay4 i x1 x0) (Gen.k0_pay5 x2) x3 xs (ix2 p u)
      = xs (ix2 p u) + ∑ r : Fin 128, rowN P T cy cx b (k * 128 + r.val) := by
  rw [step_apply]
  refine congrArg (xs (ix2 p u) + ·) (Finset.sum_congr rfl fun r _ => ?_)
  have hh : k * 128 + r.val < 512 := by have := r.isLt; omega
  rw [rowN_of_lt P T cy cx b _ hh]
  unfold rowSum
  refine Finset.sum_congr rfl fun q _ => ?_
  rw [weight_apply, wFma_eq_wSel, h0, h1, hi, h3 r q hh]
  unfold Gen.k0_pay5
  rw [shapeCast_self, h2 r q hh]

end Cert.KernelIdeal.RoiBlock

end
-- ==== Proof.KernelTotals.lean ====
/-
  The kernel's per-sample results as values. The grid visits each group of eight samples four times, once per group of
  128 image rows; the scratch total carried from step to step is, after step number k of a group, the running total of
  each of its samples over the first k + 1 row groups. The fourth step writes the square-rooted mean of the full total
  into the result column, whose 64 entries are therefore the per-sample results; the host then averages them.
-/
import proofs.«113860_j25546465476984_2_alg».proof.Defs
import proofs.«113860_j25546465476984_2_alg».proof.Proof.Gen.KernelIdeal.Frame
import proofs.«113860_j25546465476984_2_alg».proof.Proof.KernelPieces
import proofs.«113860_j25546465476984_2_alg».proof.Proof.KernelBlock
import proofs.«113860_j25546465476984_2_alg».proof.Proof.RoiSpec
import proofs.«113860_j25546465476984_2_alg».proof.Proof.LibColumn
import Idealize.ShloMosaic.Lib.Pipeline.Value
import Idealize.ShloMosaic.Lib.StableHlo.Run
import Idealize.ShloMosaic.Lib.Tactic

noncomputable section

namespace Cert.KernelIdeal.RoiValue

open Cert.KernelIdeal Cert.KernelIdeal.Gen Idealize.ShloMosaic Idealize.ShloMosaic.TcCoe Idealize.SL.Sem
open Idealize.ShloMosaic.ValueIdx Cert.Roi
open Idealize.ShloMosaic.Pipeline (Dat)

variable (m : (ℓ : Loc nD τ sig) → Buf (Elt Ideal) ℓ) (ρ : Dev nD → PrngReg)

/-! ## The centre words -/

/-- A sample's centre column as a 32-bit word: the first coordinate times 512, rounded down, converted. -/
def cxW (x2 : FVec Ideal S64x2 .f32) : IVec S64 32 :=
  fptosi 32 (Host.floor (mulf (shapeCast S64 (extractStridedSlice (s := S64x2) S64x1 ![0, 0] x2 slices_S64x2_S64x1_0_0) shapeCasts_S64x1_S64)
    (broadcastInDim S64 ![] bcast_S_S64 (constant (F := Ideal) S_ .f32 0x44000000#32))))

/-- A sample's centre row: the same of the second coordinate. -/
def cyW (x2 : FVec Ideal S64x2 .f32) : IVec S64 32 :=
  fptosi 32 (Host.floor (mulf (shapeCast S64 (extractStridedSlice (s := S64x2) S64x1 ![0, 1] x2 slices_S64x2_S64x1_0_1) shapeCasts_S64x1_S64)
    (broadcastInDim S64 ![] bcast_S_S64 (constant (F := Ideal) S_ .f32 0x44000000#32))))

/-! ## The arrays the region finds -/

/-- Before the grid starts the host has flattened each image's unit channel axis away and laid each centre word
    out as a column. -/
theorem V_v0 (c : Dev nD) : (V m c main_v0 : S64x512x512.Idx → Elt Ideal .f32)
    = shapeCast S64x512x512 (m ((c : Thread nD τ).loc main_arg0)) shapeCasts_S64x1x512x512_S64x512x512 := by
  show StableHlo.after hostOps0 (fun b => m (c, b)) (Proc.devRef .tc main_v0) = _
  after_results
  rfl

theorem V_v1 (c : Dev nD) : (V m c main_v1 : S64x512x512.Idx → Elt Ideal .f32)
    = shapeCast S64x512x512 (m ((c : Thread nD τ).loc main_arg1)) shapeCasts_S64x1x512x512_S64x512x512 := by
  show StableHlo.after hostOps0 (fun b => m (c, b)) (Proc.devRef .tc main_v1) = _
  after_results
  rfl

theorem V_v8 (c : Dev nD) : (V m c main_v8 : S64x1.Idx → Elt Ideal .i32)
    = shapeCast S64x1 (cxW (m ((c : Thread nD τ).loc main_arg2))) shapeCasts_S64_S64x1 := by
  show StableHlo.after hostOps0 (fun b => m (c, b)) (Proc.devRef .tc main_v8) = _
  after_results
  rfl

theorem V_v15 (c : Dev nD) : (V m c main_v15 : S64x1.Idx → Elt Ideal .i32)
    = shapeCast S64x1 (cyW (m ((c : Thread nD τ).loc main_arg2))) shapeCasts_S64_S64x1 := by
  show StableHlo.after hostOps0 (fun b => m (c, b)) (Proc.devRef .tc main_v15) = _
  after_results
  rfl

/-! ## Where each window's block sits -/

/-- The five windows' index maps over the grid: point t is step t mod 4 of sample group t / 4. -/
theorem idx_facts : ∀ t : Fin cfg0.N,
    win0_0.index t (0 : Fin 2) = t.val / 4 ∧ win0_0.index t (1 : Fin 2) = 0
    ∧ win0_1.index t (0 : Fin 2) = t.val / 4 ∧ win0_1.index t (1 : Fin 2) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 2) = t.val / 4 ∧ win0_4.index t (1 : Fin 2) = 0
    ∧ (grid0.coords t 1).val = t.val % 4 :=
  (by decide +kernel : ∀ t : Fin grid0.N, _)

/-- The first image block of point t at (p, r, q): sample 8 · (t / 4) + p, row 128 · (t mod 4) + r, column q. -/
theorem blk2_apply (c : Dev nD) (t : Fin cfg0.N) (p : Fin 8) (r : Fin 128) (q : Fin 512)
    (hb : t.val / 4 * 8 + p.val < 64) (hh : t.val % 4 * 128 + r.val < 512) :
    iblk m c 2 t (ix3 p r q)
      = m ((c : Thread nD τ).loc main_arg0) (ix4 ⟨t.val / 4 * 8 + p.val, hb⟩ (0 : Fin 1) ⟨t.val % 4 * 128 + r.val, hh⟩ q) := by
  obtain ⟨-, -, -, -, e0, e1, e2, -⟩ := idx_facts t
  unfold iblk
  rw [View.read_apply]
  show V m c main_v0 (((cfg0.win 2).blk t).view.emb (ix3 p r q)) = _
  rw [V_v0]
  refine shapeCast_apply _ _ _ _ ?_
  show ((⟨4, ![64, 1, 512, 512]⟩ : Shape).rowMajor (ix4 ⟨t.val / 4 * 8 + p.val, hb⟩ (0 : Fin 1) ⟨t.val % 4 * 128 + r.val, hh⟩ q)).val
    = ((⟨3, ![64, 512, 512]⟩ : Shape).rowMajor (((cfg0.win 2).blk t).view.emb (ix3 p r q))).val
  rw [Shape.rowMajor_val_four, Shape.rowMajor_val_three]
  show (((t.val / 4 * 8 + p.val) * 1 + 0) * 512 + (t.val % 4 * 128 + r.val)) * 512 + q.val
    = ((win0_2.index t (0 : Fin 3) * 8 + 1 * p.val) * 512 + (win0_2.index t (1 : Fin 3) * 128 + 1 * r.val)) * 512
      + (win0_2.index t (2 : Fin 3) * 512 + 1 * q.val)
  rw [e0, e1, e2]
  omega

/-- The second image block likewise. -/
theorem blk3_apply (c : Dev nD) (t : Fin cfg0.N) (p : Fin 8) (r : Fin 128) (q : Fin 512)
    (hb : t.val / 4 * 8 + p.val < 64) (hh : t.val % 4 * 128 + r.val < 512) :
    iblk m c 3 t (ix3 p r q)
      = m ((c : Thread nD τ).loc main_arg1) (ix4 ⟨t.val / 4 * 8 + p.val, hb⟩ (0 : Fin 1) ⟨t.val % 4 * 128 + r.val, hh⟩ q) := by
  obtain ⟨-, -, -, -, -, -, -, e0, e1, e2, -⟩ := idx_facts t
  unfold iblk
  rw [View.read_apply]
  show V m c main_v1 (((cfg0.win 3).blk t).view.emb (ix3 p r q)) = _
  rw [V_v1]
  refine shapeCast_apply _ _ _ _ ?_
  show ((⟨4, ![64, 1, 512, 512]⟩ : Shape).rowMajor (ix4 ⟨t.val / 4 * 8 + p.val, hb⟩ (0 : Fin 1) ⟨t.val % 4 * 128 + r.val, hh⟩ q)).val
    = ((⟨3, ![64, 512, 512]⟩ : Shape).rowMajor (((cfg0.win 3).blk t).view.emb (ix3 p r q))).val
  rw [Shape.rowMajor_val_four, Shape.rowMajor_val_three]
  show (((t.val / 4 * 8 + p.val) * 1 + 0) * 512 + (t.val % 4 * 128 + r.val)) * 512 + q.val
    = ((win0_3.index t (0 : Fin 3) * 8 + 1 * p.val) * 512 + (win0_3.index t (1 : Fin 3) * 128 + 1 * r.val)) * 512
      + (win0_3.index t (2 : Fin 3) * 512 + 1 * q.val)
  rw [e0, e1, e2]
  omega

/-- The centre-column block of point t at (p, 0): the centre column of sample 8 · (t / 4) + p. -/
theorem blk0_apply (c : Dev nD) (t : Fin cfg0.N) (p : Fin 8) (hb : t.val / 4 * 8 + p.val < 64) :
    iblk m c 0 t (ix2 p (0 : Fin 1)) = cxW (m ((c : Thread nD τ).loc main_arg2)) (ix1 ⟨t.val / 4 * 8 + p.val, hb⟩) := by
  obtain ⟨e0, e1, -⟩ := idx_facts t
  unfold iblk
  rw [View.read_apply]
  show V m c main_v8 (((cfg0.win 0).blk t).view.emb (ix2 p (0 : Fin 1))) = _
  rw [V_v8]
  refine shapeCast_apply _ _ _ _ ?_
  show ((⟨1, ![64]⟩ : Shape).rowMajor (ix1 ⟨t.val / 4 * 8 + p.val, hb⟩)).val
    = ((⟨2, ![64, 1]⟩ : Shape).rowMajor (((cfg0.win 0).blk t).view.emb (ix2 p (0 : Fin 1)))).val
  rw [Shape.rowMajor_val_one, Shape.rowMajor_val_two]
  show t.val / 4 * 8 + p.val = (win0_0.index t (0 : Fin 2) * 8 + 1 * p.val) * 1 + (win0_0.index t (1 : Fin 2) * 1 + 1 * 0)
  rw [e0, e1]
  omega

/-- The centre-row block likewise. -/
theorem blk1_apply (c : Dev nD) (t : Fin cfg0.N) (p : Fin 8) (hb : t.val / 4 * 8 + p.val < 64) :
    iblk m c 1 t (ix2 p (0 : Fin 1)) = cyW (m ((c : Thread nD τ).loc main_arg2)) (ix1 ⟨t.val / 4 * 8 + p.val, hb⟩) := by
  obtain ⟨-, -, e0, e1, -⟩ := idx_facts t
  unfold iblk
  rw [View.read_apply]
  show V m c main_v15 (((cfg0.win 1).blk t).view.emb (ix2 p (0 : Fin 1))) = _
  rw [V_v15]
  refine shapeCast_apply _ _ _ _ ?_
  show ((⟨1, ![64]⟩ : Shape).rowMajor (ix1 ⟨t.val / 4 * 8 + p.val, hb⟩)).val
    = ((⟨2, ![64, 1]⟩ : Shape).rowMajor (((cfg0.win 1).blk t).view.emb (ix2 p (0 : Fin 1)))).val
  rw [Shape.rowMajor_val_one, Shape.rowMajor_val_two]
  show t.val / 4 * 8 + p.val = (win0_1.index t (0 : Fin 2) * 8 + 1 * p.val) * 1 + (win0_1.index t (1 : Fin 2) * 1 + 1 * 0)
  rw [e0, e1]
  omega

/-! ## The running totals -/

/-- The two images, sample by sample, and the centre words, as the arguments hold them. -/
abbrev Pm (c : Dev nD) : Fin 64 → Fin 512 → Fin 512 → EReal :=
  fun b h q => m ((c : Thread nD τ).loc main_arg0) (ix4 b (0 : Fin 1) h q)
abbrev Tm (c : Dev nD) : Fin 64 → Fin 512 → Fin 512 → EReal :=
  fun b h q => m ((c : Thread nD τ).loc main_arg1) (ix4 b (0 : Fin 1) h q)
abbrev cym (c : Dev nD) : Fin 64 → BitVec 32 := fun b => cyW (m ((c : Thread nD τ).loc main_arg2)) (ix1 b)
abbrev cxm (c : Dev nD) : Fin 64 → BitVec 32 := fun b => cxW (m ((c : Thread nD τ).loc main_arg2)) (ix1 b)

/-- The step at point t, applied to a total xs: entry p gains the next 128 row sums of sample 8 · (t / 4) + p. -/
theorem update_at (c : Dev nD) (t : Fin cfg0.N) (xs : Vec Ideal S8x1 .f32) (p : Fin 8) (u : Fin 1)
    (hb : t.val / 4 * 8 + p.val < 64) :
    k0_pay2 (F := Ideal) (k0_pay4 (grid0.coords t) (iblk m c 1 t) (iblk m c 0 t)) (k0_pay5 (iblk m c 2 t)) (iblk m c 3 t) xs (ix2 p u)
      = xs (ix2 p u) + ∑ r : Fin 128, rowN (Pm m c) (Tm m c) (cym m c) (cxm m c) ⟨t.val / 4 * 8 + p.val, hb⟩ (t.val % 4 * 128 + r.val) := by
  obtain ⟨-, -, -, -, -, -, -, -, -, -, -, -, eg⟩ := idx_facts t
  exact RoiBlock.update_apply (grid0.coords t) (iblk m c 0 t) (iblk m c 1 t) (iblk m c 2 t) (iblk m c 3 t) xs
    (Pm m c) (Tm m c) (cym m c) (cxm m c) ⟨t.val / 4 * 8 + p.val, hb⟩ (t.val % 4) (Nat.mod_lt _ (by decide)) p u eg
    (blk0_apply m c t p hb) (blk1_apply m c t p hb) (fun r q hh => blk2_apply m c t p r q hb hh)
    (fun r q hh => blk3_apply m c t p r q hb hh)

/-- What the carried total holds after a first step, -/
theorem scratch_A (c : Dev nD) (t : Fin cfg0.N) (h0 : t.val % 4 = 0) (h1 : ¬t.val % 4 = 3) :
    (outsAt0 m c t.val t.isLt).2 = k0_pay2 (F := Ideal) (k0_pay4 (grid0.coords t) (iblk m c 1 t) (iblk m c 0 t)) (k0_pay5 (iblk m c 2 t)) (iblk m c 3 t) (k0_pay1 (F := Ideal)) := by
  rw [outsAt0_A m c t h0 h1]
  exact RoiPieces.sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- after a middle step, -/
theorem scratch_B (c : Dev nD) (t : Fin cfg0.N) (h0 : ¬t.val % 4 = 0) (h1 : ¬t.val % 4 = 3) :
    (outsAt0 m c t.val t.isLt).2 = k0_pay2 (F := Ideal) (k0_pay4 (grid0.coords t) (iblk m c 1 t) (iblk m c 0 t)) (k0_pay5 (iblk m c 2 t)) (iblk m c 3 t) (outsAt0 m c (t.val - 1) (Nat.lt_of_le_of_lt (Nat.sub_le _ _) t.isLt)).2 := by
  rw [outsAt0_B m c t h0 h1]
  exact RoiPieces.sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- and after a last step; -/
theorem scratch_C (c : Dev nD) (t : Fin cfg0.N) (h0 : ¬t.val % 4 = 0) (h1 : t.val % 4 = 3) :
    (outsAt0 m c t.val t.isLt).2 = k0_pay2 (F := Ideal) (k0_pay4 (grid0.coords t) (iblk m c 1 t) (iblk m c 0 t)) (k0_pay5 (iblk m c 2 t)) (iblk m c 3 t) (outsAt0 m c (t.val - 1) (Nat.lt_of_le_of_lt (Nat.sub_le _ _) t.isLt)).2 := by
  rw [outsAt0_C m c t h0 h1]
  exact RoiPieces.sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- the last step's output block is the finishing arithmetic of that total. -/
theorem result_C (c : Dev nD) (t : Fin cfg0.N) (h0 : ¬t.val % 4 = 0) (h1 : t.val % 4 = 3) :
    (outsAt0 m c t.val t.isLt).1 = k0_pay3 (F := Ideal) (outsAt0 m c t.val t.isLt).2 := by
  rw [outsAt0_C m c t h0 h1]
  exact (RoiPieces.out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (congrArg (k0_pay3 (F := Ideal)) (RoiPieces.sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm)

/-- THE INVARIANT: after point n, entry p of the carried total is the running total of sample 8 · (n / 4) + p over
    its first n mod 4 + 1 row groups. By induction on the point. -/
theorem totals (c : Dev nD) : ∀ (n : ℕ) (hn : n < cfg0.N) (p : Fin 8) (u : Fin 1) (hb : n / 4 * 8 + p.val < 64),
    (outsAt0 m c n hn).2 (ix2 p u) = acc (Pm m c) (Tm m c) (cym m c) (cxm m c) ⟨n / 4 * 8 + p.val, hb⟩ (n % 4 + 1) := by
  intro n
  induction n using Nat.strong_induction_on with
  | _ n ih =>
    intro hn p u hb
    have hN : cfg0.N = 32 := N_0
    by_cases h0 : n % 4 = 0
    · have h1 : ¬n % 4 = 3 := by omega
      refine (congrFun (scratch_A m c ⟨n, hn⟩ h0 h1) (ix2 p u)).trans ?_
      refine (update_at m c ⟨n, hn⟩ _ p u hb).trans ?_
      rw [RoiBlock.start_apply]
      show (0 : EReal) + ∑ r : Fin 128, rowN (Pm m c) (Tm m c) (cym m c) (cxm m c) ⟨n / 4 * 8 + p.val, hb⟩ (n % 4 * 128 + r.val) = _
      rw [h0, acc_succ, acc_zero]
    · have hpos : 0 < n := by omega
      have hb' : (n - 1) / 4 * 8 + p.val < 64 := by omega
      have hprev := ih (n - 1) (by omega) (by omega) p u hb'
      have hfin : (⟨(n - 1) / 4 * 8 + p.val, hb'⟩ : Fin 64) = ⟨n / 4 * 8 + p.val, hb⟩ := Fin.ext (by show (n - 1) / 4 * 8 + p.val = n / 4 * 8 + p.val; omega)
      have hk : (n - 1) % 4 + 1 = n % 4 := by omega
      rw [hfin, hk] at hprev
      by_cases h1 : n % 4 = 3
      · refine (congrFun (scratch_C m c ⟨n, hn⟩ h0 h1) (ix2 p u)).trans ?_
        refine (update_at m c ⟨n, hn⟩ _ p u hb).trans ?_
        show (outsAt0 m c (n - 1) _).2 (ix2 p u) + ∑ r : Fin 128, rowN (Pm m c) (Tm m c) (cym m c) (cxm m c) ⟨n / 4 * 8 + p.val, hb⟩ (n % 4 * 128 + r.val) = _
        rw [hprev, acc_succ]
      · refine (congrFun (scratch_B m c ⟨n, hn⟩ h0 h1) (ix2 p u)).trans ?_
        refine (update_at m c ⟨n, hn⟩ _ p u hb).trans ?_
        show (outsAt0 m c (n - 1) _).2 (ix2 p u) + ∑ r : Fin 128, rowN (Pm m c) (Tm m c) (cym m c) (cxm m c) ⟨n / 4 * 8 + p.val, hb⟩ (n % 4 * 128 + r.val) = _
        rw [hprev, acc_succ]

/-! ## The result column -/

/-- The per-sample results as a column. -/
def lossCol (c : Dev nD) : S64x1.Idx → Elt Ideal .f32 :=
  fun j => loss (Pm m c) (Tm m c) (cym m c) (cxm m c) ⟨(j 0).val, idx2_lt0 j⟩

/-- A last step's output block, entry by entry: the result of the sample the entry belongs to. -/
theorem out_entry (c : Dev nD) (t : Fin cfg0.N) (h3 : t.val % 4 = 3) (y : S8x1.Idx)
    (hb : t.val / 4 * 8 + (y 0).val < 64) :
    (outsAt0 m c t.val t.isLt).1 y = loss (Pm m c) (Tm m c) (cym m c) (cxm m c) ⟨t.val / 4 * 8 + (y 0).val, hb⟩ := by
  obtain ⟨p, u, rfl⟩ : ∃ (p : Fin 8) (u : Fin 1), y = ix2 p u := ⟨y 0, y 1, eq_ix2 y⟩
  have h0 : ¬t.val % 4 = 0 := by omega
  rw [result_C m c t h0 h3, RoiBlock.finish_apply, totals m c t.val t.isLt p u hb, h3]
  rfl

/-- An index of the result column is in point t's block iff each coordinate is in the block's range. -/
theorem mem_blk (t : Fin cfg0.N) (i : S64x1.Idx) :
    i ∈ ((cfg0.win 4).blk t).view.set
      ↔ ∀ a : Fin 2, win0_4.index t a * S8x1.size a ≤ (i a).val ∧ (i a).val < win0_4.index t a * S8x1.size a + S8x1.size a := by
  show i ∈ ((View.whole main_v16).slice (win0_4.rect t)).set ↔ _
  rw [View.set_slice_whole, Rect.mem_set_unit]
  exact Iff.rfl

/-- What a last step writes back is its block of the result column. -/
theorem flushed_eq (c : Dev nD) (t : Fin cfg0.N) (hf : (cfg0.win 4).flush t = true) :
    (dats m 0 c).flushed 4 t = ((cfg0.win 4).blk t).view.read (Elt Ideal) (lossCol m c) := by
  have h3 : t.val % 4 = 3 := (flush0_4 t).mp hf
  obtain ⟨-, -, -, -, -, -, -, -, -, -, e0, e1, -⟩ := idx_facts t
  have hN : t.val < 32 := lt_of_lt_of_eq t.isLt N_0
  show (cfg0.win 4).cut (grid0.coords t) ((dats m 0 c).after 4 t) = _
  rw [after0_4]
  funext y
  have hy : (y 0).val < 8 := (y 0).isLt
  show (outsAt0 m c t.val t.isLt).1 y = lossCol m c (((cfg0.win 4).blk t).view.emb y)
  refine (out_entry m c t h3 y (by omega)).trans ?_
  unfold lossCol
  refine congrArg (loss (Pm m c) (Tm m c) (cym m c) (cxm m c)) (Fin.ext ?_)
  show t.val / 4 * 8 + (y 0).val = win0_4.index t (0 : Fin 2) * 8 + 1 * (y 0).val
  rw [e0]
  omega

/-- Every entry of the result column is in the block of some last step. -/
theorem cover (i : S64x1.Idx) : ∃ t : Fin cfg0.N, (cfg0.win 4).flush t = true ∧ i ∈ ((cfg0.win 4).blk t).view.set := by
  have h0 : (i 0).val < 64 := (i 0).isLt
  have h1 : (i 1).val < 1 := (i 1).isLt
  have hN : cfg0.N = 32 := N_0
  have hlt : (i 0).val / 8 * 4 + 3 < cfg0.N := by rw [hN]; omega
  obtain ⟨-, -, -, -, -, -, -, -, -, -, e0, e1, -⟩ := idx_facts ⟨(i 0).val / 8 * 4 + 3, hlt⟩
  refine ⟨⟨(i 0).val / 8 * 4 + 3, hlt⟩, (flush0_4 _).mpr (by show ((i 0).val / 8 * 4 + 3) % 4 = 3; omega), ?_⟩
  rw [mem_blk]
  intro a
  match a with
  | ⟨0, _⟩ =>
    show win0_4.index ⟨(i 0).val / 8 * 4 + 3, hlt⟩ (0 : Fin 2) * 8 ≤ (i 0).val
      ∧ (i 0).val < win0_4.index ⟨(i 0).val / 8 * 4 + 3, hlt⟩ (0 : Fin 2) * 8 + 8
    rw [e0]
    show ((i 0).val / 8 * 4 + 3) / 4 * 8 ≤ (i 0).val ∧ (i 0).val < ((i 0).val / 8 * 4 + 3) / 4 * 8 + 8
    omega
  | ⟨1, _⟩ =>
    show win0_4.index ⟨(i 0).val / 8 * 4 + 3, hlt⟩ (1 : Fin 2) * 1 ≤ (i 1).val
      ∧ (i 1).val < win0_4.index ⟨(i 0).val / 8 * 4 + 3, hlt⟩ (1 : Fin 2) * 1 + 1
    rw [e1]
    omega

/-- So the result column ends holding the per-sample results. -/
theorem final_col (c : Dev nD) : (dats m 0 c).arrAt 4 cfg0.N = lossCol m c :=
  (dats m 0 c).arrAt_eq_of_cover 4 (lossCol m c) (flushed_eq m c) cover

/-! ## The closing average and the run -/

/-- The host's closing average of 64 numbers: their sum from zero, divided by 64. -/
def mean64 (v : FVec Ideal S64 .f32) : FVec Ideal S_ .f32 :=
  Host.divf (Host.reduceAdd v (constant (F := Ideal) S_ .f32 0x00000000#32) reducesTo_S64_S_d0 h_S_)
    (constant (F := Ideal) S_ .f32 0x42800000#32)

/-- The program's result: the closing average of the result column read as a vector. -/
theorem result_eq (c : Dev nD) :
    (Pipeline.afterTail₀ cfgs (dats m) 0 (V0 m) [hostOps1] c main_v19 : S_.Idx → Elt Ideal .f32)
      = mean64 (shapeCast S64 (lossCol m c) shapeCasts_S64x1_S64) := by
  unfold Pipeline.afterTail₀
  show StableHlo.after hostOps1 _ (Proc.devRef .tc main_v19) = _
  after_results
  have hw : Pipeline.withArrays (cfgs 0).spec c (V0 m c) (fun w => (dats m 0 c).arrAt w (cfgs 0).N)
      (Proc.devRef .tc main_v16) = lossCol m c :=
    (Pipeline.withArrays_arr spec0 launch0.win.arr_inj c _ _ 4).trans (final_col m c)
  rw [hw]
  rfl

/-- The run, read: the result at the closing average of the per-sample results, the arguments unchanged. -/
theorem run : θ_run defs (onTc (τ := τ) (main (F := Ideal))) ⟨m, fun _ => 0, ρ⟩ fun r => ∀ c : Dev nD,
      r.2.mem ((c.tc : Thread nD τ).loc main_v19) = mean64 (shapeCast S64 (lossCol m c) shapeCasts_S64x1_S64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RoiValue

end
-- ==== Proof.RefSide.lean ====
/-
  The reference, sample by sample: its weighted squared error at a pixel is the pixel term with the weight chosen by
  selection; its sum over the three image axes of a sample is the sum over rows of the sums over columns; so each
  sample's square-rooted mean is the number the running total over four groups of rows ends at.
-/
import proofs.«113860_j25546465476984_2_alg».proof.Defs
import proofs.«113860_j25546465476984_2_alg».proof.Proof.Gen.ReferenceIdeal.Read
import proofs.«113860_j25546465476984_2_alg».proof.Proof.RoiSpec
import Idealize.ShloMosaic.Lib.ValueIdx
import Idealize.ShloMosaic.Lib.Pipeline.Value
import Idealize.ShloMosaic.PureOps.Ideal.Laws

noncomputable section

namespace Cert.ReferenceIdeal.RoiRef

open Cert.ReferenceIdeal Cert.ReferenceIdeal.Gen Cert.ReferenceIdeal.Read Idealize.ShloMosaic Idealize.ShloMosaic.ValueIdx Cert.Roi

variable (x0 x1 : (⟨S64x1x512x512, .f32⟩ : BufTy).Contents (Elt Ideal)) (x2 : (⟨S64x2, .f32⟩ : BufTy).Contents (Elt Ideal))

/-- The reference's weighted squared error at pixel (h, c) of sample b. -/
theorem term_apply (b : Fin 64) (u : Fin 1) (h c : Fin 512) :
    val_main_v52 (F := Ideal) x0 x1 x2 (ix4 b u h c)
      = cell (x0 (ix4 b u h c)) (x1 (ix4 b u h c))
          (wSel (band (val_main_v11 (F := Ideal) x2 (ix1 b)) h.val) (band (val_main_v5 (F := Ideal) x2 (ix1 b)) c.val)) := by
  simp only [val_main_v52_apply, val_main_v51_apply, val_main_v50_apply, val_main_v49_apply, val_main_v48_apply, val_main_v46_apply, val_main_v47_apply, val_main_v44_apply, val_main_v45_apply, val_main_v28_apply, val_main_v43_apply, val_main_v20_apply, val_main_v27_apply, val_main_v35_apply, val_main_v42_apply, val_main_v18_apply, val_main_v19_apply, val_main_v25_apply, val_main_v26_apply, val_main_v33_apply, val_main_v34_apply, val_main_v40_apply, val_main_v41_apply, val_main_v14_apply, val_main_v21_apply, val_main_v29_apply, val_main_v36_apply, val_main_v12_apply, val_main_v13_apply, val_main_v17_apply, val_main_v24_apply, val_main_v32_apply, val_main_v39_apply, val_main_v16_apply, val_main_v23_apply, val_main_v31_apply, val_main_v38_apply, val_main_v15_apply, val_main_v22_apply, val_main_v30_apply, val_main_v37_apply, val_main_c_apply, val_main_c_1_apply, val_main_c_2_apply, val_main_c_3_apply, val_main_call0_v0_apply, val_main_call0_v1_apply, val_main_cst_4_apply, val_main_cst_5_apply]
  have e1 : idx_main_v17 (idx_main_v19 (idx_main_v44 (idx_main_v46 (ix4 b u h c)))) = ix1 b :=
    funext fun a => Fin.ext (by match a with | ⟨0, _⟩ => rfl)
  have e2 : idx_main_v24 (idx_main_v26 (idx_main_v44 (idx_main_v46 (ix4 b u h c)))) = ix1 b :=
    funext fun a => Fin.ext (by match a with | ⟨0, _⟩ => rfl)
  have e3 : idx_main_v32 (idx_main_v34 (idx_main_v45 (idx_main_v47 (ix4 b u h c)))) = ix1 b :=
    funext fun a => Fin.ext (by match a with | ⟨0, _⟩ => rfl)
  have e4 : idx_main_v39 (idx_main_v41 (idx_main_v45 (idx_main_v47 (ix4 b u h c)))) = ix1 b :=
    funext fun a => Fin.ext (by match a with | ⟨0, _⟩ => rfl)
  rw [e1, e2, e3, e4]
  rfl

/-! ## The sum over a sample's image -/

/-- The indices that reduce to sample b are the pixels (h, c) of that sample, one each. -/
def pixEmb (b : Fin 64) : Fin 512 × Fin 512 ↪ S64x1x512x512.Idx :=
  ⟨fun q => ix4 b (0 : Fin 1) q.1 q.2, fun q q' e => by
    have e2 := congrFun e 2
    have e3 := congrFun e 3
    exact Prod.ext e2 e3⟩

theorem filter_drop (b : Fin 64) :
    Finset.univ.filter (fun i : S64x1x512x512.Idx => reducesTo_S64x1x512x512_S64_d1_2_3.drop i = ix1 b)
      = Finset.univ.map (pixEmb b) := by
  ext i
  simp only [Finset.mem_filter, Finset.mem_univ, true_and, Finset.mem_map, pixEmb, Function.Embedding.coeFn_mk]
  constructor
  · intro hd
    refine ⟨(i 2, i 3), ?_⟩
    have h0 : i 0 = b := by
      have := congrFun hd 0
      exact this
    funext a
    match a with
    | ⟨0, _⟩ => exact h0.symm
    | ⟨1, _⟩ => exact Fin.ext (by have h1 : (i 1).val < 1 := (i 1).isLt; show (0 : ℕ) = (i 1).val; omega)
    | ⟨2, _⟩ => rfl
    | ⟨3, _⟩ => rfl
  · rintro ⟨q, rfl⟩
    funext a
    match a with
    | ⟨0, _⟩ => rfl

/-- The reference's total of sample b: the sum over rows of the sums over columns. -/
theorem total_apply (b : Fin 64) :
    val_main_v53 (F := Ideal) x0 x1 x2 (ix1 b)
      = acc (fun b h c => x0 (ix4 b (0 : Fin 1) h c)) (fun b h c => x1 (ix4 b (0 : Fin 1) h c))
          (fun b => val_main_v11 (F := Ideal) x2 (ix1 b)) (fun b => val_main_v5 (F := Ideal) x2 (ix1 b)) b 4 := by
  rw [acc_four]
  unfold val_main_v53
  show Ideal.hostReduceAdd _ _ _ (ix1 b) = _
  unfold Ideal.hostReduceAdd
  rw [filter_drop, Finset.sum_map]
  show Ideal.ofBits .f32 0x00000000#32 + _ = _
  rw [Ideal.ofBits_zero_f32, zero_add, Fintype.sum_prod_type]
  refine Finset.sum_congr rfl fun h _ => ?_
  unfold rowSum
  refine Finset.sum_congr rfl fun c _ => ?_
  exact term_apply x0 x1 x2 b 0 h c

/-- The reference's per-sample result is the square-rooted mean of that total. -/
theorem loss_apply (b : Fin 64) :
    val_main_v56 (F := Ideal) x0 x1 x2 (ix1 b)
      = loss (fun b h c => x0 (ix4 b (0 : Fin 1) h c)) (fun b h c => x1 (ix4 b (0 : Fin 1) h c))
          (fun b => val_main_v11 (F := Ideal) x2 (ix1 b)) (fun b => val_main_v5 (F := Ideal) x2 (ix1 b)) b := by
  rw [val_main_v56_apply, val_main_v55_apply, val_main_v54_apply, val_main_cst_7_apply, total_apply]
  rfl

end Cert.ReferenceIdeal.RoiRef

end
-- ==== Proof.LibSqueeze.lean ====
/-
  A column [a, 1] flattened to the vector [a] (the host's reshape after a reduction that kept its axis),
  read at an index written by coordinates.
-/
import Idealize.ShloMosaic.Lib.Pipeline.Value
import Idealize.ShloMosaic.Lib.ValueIdx

namespace Idealize.ShloMosaic.ValueIdx

variable {α : Type}

/-- An `[a, 1]` column cast to the vector `[a]` reads, at `i`, the column's entry of row `i`: both indices
    have row-major position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.lean ====
/-
  A region-weighted root-mean-square error, averaged over 64 samples: the tiled kernel against the whole-array reference.

  For each sample both programs form, pixel by pixel, the squared difference of two 512 x 512 images times a weight —
  10 inside a square box of side 32 around a centre computed from the sample's coordinates, 1 outside —, sum it over
  the image, divide by the pixel count 2^18, take the square root, and finally average the 64 results. They differ in
  how the weight is spelt (the reference selects between 10 and 1 on the conjunction of a row-band bit and a
  column-band bit; the kernel computes 1 + 9 · (y · x) over the two bits as numbers) and in the order of the sum (the
  reference sums a sample's image at once; the kernel walks it in four groups of 128 rows, summing columns first, and
  carries a running total from step to step). Over the extended reals 1 + 9 · 1 = 10 and 1 + 9 · 0 = 1, and a finite
  sum does not depend on its order or grouping, so the two per-sample results are the same number, and the closing
  averages are the same operations of the same 64 numbers. The inputs' finiteness is not needed.

  The frames of the two kernel programs and the runs they rest on are the generated ones; the reference's frame is its
  generated run with the result dropped; the idealization rewrote nothing.
-/
import proofs.«113860_j25546465476984_2_alg».proof.Defs
import proofs.«113860_j25546465476984_2_alg».proof.Proof.Gen.Kernel
import proofs.«113860_j25546465476984_2_alg».proof.Proof.Gen.Kernel.Skeleton
import proofs.«113860_j25546465476984_2_alg».proof.Proof.Gen.Kernel.Launch
import proofs.«113860_j25546465476984_2_alg».proof.Proof.Gen.Kernel.Points
import proofs.«113860_j25546465476984_2_alg».proof.Proof.Gen.Kernel.Frame
import proofs.«113860_j25546465476984_2_alg».proof.Proof.Gen.KernelIdeal
import proofs.«113860_j25546465476984_2_alg».proof.Proof.Gen.KernelIdeal.Skeleton
import proofs.«113860_j25546465476984_2_alg».proof.Proof.Gen.KernelIdeal.Launch
import proofs.«113860_j25546465476984_2_alg».proof.Proof.Gen.KernelIdeal.Points
import proofs.«113860_j25546465476984_2_alg».proof.Proof.Gen.KernelIdeal.Frame
import proofs.«113860_j25546465476984_2_alg».proof.Proof.Gen.ReferenceIdeal
import proofs.«113860_j25546465476984_2_alg».proof.Proof.Gen.ReferenceIdeal.Run
import proofs.«113860_j25546465476984_2_alg».proof.Proof.Gen.ReferenceIdeal.Read
import proofs.«113860_j25546465476984_2_alg».proof.Proof.Gen.Pre_finite_inputs
import proofs.«113860_j25546465476984_2_alg».proof.Proof.KernelTotals
import proofs.«113860_j25546465476984_2_alg».proof.Proof.RefSide
import proofs.«113860_j25546465476984_2_alg».proof.Proof.LibSqueeze
import Idealize.ShloMosaic.Adequacy
import Idealize.ShloMosaic.Init

noncomputable section

namespace Cert.Proof

open Idealize.ShloMosaic Idealize.ShloMosaic.TcCoe Idealize.SL.Sem Idealize.ShloMosaic.ValueIdx

/-! ## The two sides' per-sample results are one column of numbers -/

/-- The centre words are the same function of the coordinates on both sides: the same five host operations. -/
theorem cx_agree (x2 : FVec Ideal Cert.KernelIdeal.S64x2 .f32) :
    Cert.ReferenceIdeal.Read.val_main_v5 (F := Ideal) x2 = Cert.KernelIdeal.RoiValue.cxW x2 := rfl

theorem cy_agree (x2 : FVec Ideal Cert.KernelIdeal.S64x2 .f32) :
    Cert.ReferenceIdeal.Read.val_main_v11 (F := Ideal) x2 = Cert.KernelIdeal.RoiValue.cyW x2 := rfl

/-- The reference's result, of the kernel's arguments, is the closing average of the kernel's result column. -/
theorem result_agree (m : (ℓ : Loc Cert.KernelIdeal.nD Cert.KernelIdeal.τ Cert.KernelIdeal.sig) → Buf (Elt Ideal) ℓ)
    (c : Dev Cert.KernelIdeal.nD) :
    Cert.ReferenceIdeal.Read.val_main_v58 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.RoiValue.mean64
          (shapeCast Cert.KernelIdeal.S64 (Cert.KernelIdeal.RoiValue.lossCol m c) Cert.KernelIdeal.Gen.shapeCasts_S64x1_S64) := by
  have hcol : Cert.ReferenceIdeal.Read.val_main_v56 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = shapeCast Cert.KernelIdeal.S64 (Cert.KernelIdeal.RoiValue.lossCol m c) Cert.KernelIdeal.Gen.shapeCasts_S64x1_S64 := by
    funext j
    obtain ⟨b, rfl⟩ : ∃ b : Fin 64, j = ix1 b := ⟨j 0, eq_ix1 j⟩
    rw [shapeCast_a1_a_apply, Cert.ReferenceIdeal.RoiRef.loss_apply, cx_agree, cy_agree]
    rfl
  unfold Cert.ReferenceIdeal.Read.val_main_v58 Cert.ReferenceIdeal.Read.val_main_v57
  rw [hcol]
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel ends at the closing average of its result column and the reference at its own
    term of arguments that agree: the same number. -/
theorem algebraic : Cert.algebraic_KernelIdeal_ReferenceIdeal := by
  intro m ρ m' ρ' _ hagree
  refine ⟨fun c => Cert.KernelIdeal.RoiValue.mean64
      (shapeCast Cert.KernelIdeal.S64 (Cert.KernelIdeal.RoiValue.lossCol m c) Cert.KernelIdeal.Gen.shapeCasts_S64x1_S64),
    Cert.KernelIdeal.RoiValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v58_eq]
  exact result_agree m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
